-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x48 : Shape := ⟨2, ![2097152, 48]⟩
abbrev S32x64 : Shape := ⟨2, ![32, 64]⟩
abbrev S64x64 : Shape := ⟨2, ![64, 64]⟩
abbrev S64x16 : Shape := ⟨2, ![64, 16]⟩
abbrev S31x64 : Shape := ⟨2, ![31, 64]⟩
abbrev S64x3 : Shape := ⟨2, ![64, 3]⟩
abbrev S_ : Shape := ⟨0, ![]⟩

class Facts : Prop where
  bcast_S_S2097152x48 : S_.BroadcastsInDim S2097152x48 (![] : Fin 0 → Fin S2097152x48.rank)
  reducesTo_S2097152x48_S_d0_1 : S2097152x48.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S31x64 : S_.BroadcastsInDim S31x64 (![] : Fin 0 → Fin S31x64.rank)
  reducesTo_S31x64_S_d0_1 : S31x64.ReducesTo [0, 1] S_
  bcast_S_S64x3 : S_.BroadcastsInDim S64x3 (![] : Fin 0 → Fin S64x3.rank)
  reducesTo_S64x3_S_d0_1 : S64x3.ReducesTo [0, 1] S_

variable [Facts]

def fn_part2 {F : FTy → Type} [FloatOps F] (main_arg7 : FVec F S64x3 .f32) (main_v33 : IVec S_ 1) : IVec S_ 1 :=
  let main_v34 : FVec F S64x3 .f32 := Host.absf main_arg7
  let main_cst_12 : FVec F S_ .f32 := constant S_ .f32 0x7F800000#32
  let main_v35 : FVec F S64x3 .f32 := broadcastInDim S64x3 ![] bcast_S_S64x3 main_cst_12
  let main_v36 : IVec S64x3 1 := cmpf .olt main_v34 main_v35
  let main_c_13 : IVec S_ 1 := constantI S_ 1 1#1
  let main_v37 : IVec S_ 1 := (fun x v => Host.reduce IntOp.andi x v reducesTo_S64x3_S_d0_1 h_S_) main_v36 main_c_13
  let main_v38 : IVec S_ 1 := andi main_v33 main_v37
  main_v38

def fn_part1 {F : FTy → Type} [FloatOps F] (main_arg4 : FVec F S31x64 .f32) (main_arg5 : FVec F S64x64 .f32) (main_arg6 : FVec F S64x64 .f32) (main_arg7 : FVec F S64x3 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S31x64 .f32 := Host.absf main_arg4
  let main_cst_6 : FVec F S_ .f32 := constant S_ .f32 0x7F800000#32
  let main_v20 : FVec F S31x64 .f32 := broadcastInDim S31x64 ![] bcast_S_S31x64 main_cst_6
  let main_v21 : IVec S31x64 1 := cmpf .olt main_v19 main_v20
  let main_c_7 : IVec S_ 1 := constantI S_ 1 1#1
  let main_v22 : IVec S_ 1 := (fun x v => Host.reduce IntOp.andi x v reducesTo_S31x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_v33

def fn {F : FTy → Type} [FloatOps F] (main_arg0 : FVec F S2097152x48 .f32) (main_arg1 : FVec F S32x64 .f32) (main_arg2 : FVec F S64x64 .f32) (main_arg3 : FVec F S64x16 .f32) (main_arg4 : FVec F S31x64 .f32) (main_arg5 : FVec F S64x64 .f32) (main_arg6 : FVec F S64x64 .f32) (main_arg7 : FVec F S64x3 .f32) : IVec S_ 1 :=
  let main_v0 : FVec F S2097152x48 .f32 := Host.absf main_arg0
  let main_cst : FVec F S_ .f32 := constant S_ .f32 0x7F800000#32
  let main_v1 : FVec F S2097152x48 .f32 := broadcastInDim S2097152x48 ![] bcast_S_S2097152x48 main_cst
  let main_v2 : IVec S2097152x48 1 := cmpf .olt main_v0 main_v1
  let main_c : IVec S_ 1 := constantI S_ 1 1#1
  let main_v3 : IVec S_ 1 := (fun x v => Host.reduce IntOp.andi x v reducesTo_S2097152x48_S_d0_1 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_arg5 main_arg6 main_arg7 main_v13 main_v16
-- ==== Kernel.lean ====
abbrev S2097152x48 : Shape := ⟨2, ![2097152, 48]⟩
abbrev S32x64 : Shape := ⟨2, ![32, 64]⟩
abbrev S64x64 : Shape := ⟨2, ![64, 64]⟩
abbrev S64x16 : Shape := ⟨2, ![64, 16]⟩
abbrev S31x64 : Shape := ⟨2, ![31, 64]⟩
abbrev S64x3 : Shape := ⟨2, ![64, 3]⟩
abbrev S16x64 : Shape := ⟨2, ![16, 64]⟩
abbrev S15x64 : Shape := ⟨2, ![15, 64]⟩
abbrev S65536x128 : Shape := ⟨2, ![65536, 128]⟩
abbrev S8192x48 : Shape := ⟨2, ![8192, 48]⟩
abbrev S256x128 : Shape := ⟨2, ![256, 128]⟩
abbrev S8192x32 : Shape := ⟨2, ![8192, 32]⟩
abbrev S8192x16 : Shape := ⟨2, ![8192, 16]⟩
abbrev S8192x64 : Shape := ⟨2, ![8192, 64]⟩
abbrev S8192x1 : Shape := ⟨2, ![8192, 1]⟩
abbrev S8192x15 : Shape := ⟨2, ![8192, 15]⟩
abbrev S8192x3 : Shape := ⟨2, ![8192, 3]⟩
abbrev S8192x4 : Shape := ⟨2, ![8192, 4]⟩
abbrev S2097152x4 : Shape := ⟨2, ![2097152, 4]⟩

abbrev nBuf : Space → Nat
  | .hbm => 20
  | .vmem => 12
  | .smem => 0
  | _ => 0

abbrev bufTy : (tb : Table) → Fin (tcTables nBuf tb) → BufTy
  | .hbm, ⟨0, _⟩ => ⟨S2097152x48, .f32⟩
  | .hbm, ⟨1, _⟩ => ⟨S32x64, .f32⟩
  | .hbm, ⟨2, _⟩ => ⟨S64x64, .f32⟩
  | .hbm, ⟨3, _⟩ => ⟨S64x16, .f32⟩
  | .hbm, ⟨4, _⟩ => ⟨S31x64, .f32⟩
  | .hbm, ⟨5, _⟩ => ⟨S64x64, .f32⟩
  | .hbm, ⟨6, _⟩ => ⟨S64x64, .f32⟩
  | .hbm, ⟨7, _⟩ => ⟨S64x3, .f32⟩
  | .hbm, ⟨8, _⟩ => ⟨S32x64, .bf16⟩
  | .hbm, ⟨9, _⟩ => ⟨S64x64, .bf16⟩
  | .hbm, ⟨10, _⟩ => ⟨S64x16, .bf16⟩
  | .hbm, ⟨11, _⟩ => ⟨S16x64, .f32⟩
  | .hbm, ⟨12, _⟩ => ⟨S16x64, .bf16⟩
  | .hbm, ⟨13, _⟩ => ⟨S15x64, .f32⟩
  | .hbm, ⟨14, _⟩ => ⟨S15x64, .bf16⟩
  | .hbm, ⟨15, _⟩ => ⟨S64x64, .bf16⟩
  | .hbm, ⟨16, _⟩ => ⟨S64x64, .bf16⟩
  | .hbm, ⟨17, _⟩ => ⟨S64x3, .bf16⟩
  | .hbm, ⟨18, _⟩ => ⟨S65536x128, .f32⟩
  | .hbm, ⟨19, _⟩ => ⟨S2097152x4, .f32⟩
  | .local _ .vmem, ⟨0, _⟩ => ⟨S8192x48, .f32⟩
  | .local _ .vmem, ⟨1, _⟩ => ⟨S8192x48, .f32⟩
  | .local _ .vmem, ⟨2, _⟩ => ⟨S32x64, .bf16⟩
  | .local _ .vmem, ⟨3, _⟩ => ⟨S64x64, .bf16⟩
  | .local _ .vmem, ⟨4, _⟩ => ⟨S64x16, .bf16⟩
  | .local _ .vmem, ⟨5, _⟩ => ⟨S16x64, .bf16⟩
  | .local _ .vmem, ⟨6, _⟩ => ⟨S15x64, .bf16⟩
  | .local _ .vmem, ⟨7, _⟩ => ⟨S64x64, .bf16⟩
  | .local _ .vmem, ⟨8, _⟩ => ⟨S64x64, .bf16⟩
  | .local _ .vmem, ⟨9, _⟩ => ⟨S64x3, .bf16⟩
  | .local _ .vmem, ⟨10, _⟩ => ⟨S256x128, .f32⟩
  | .local _ .vmem, ⟨11, _⟩ => ⟨S256x128, .f32⟩
  | _, _ => ⟨S2097152x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S15x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x3 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  slices_S31x64_S16x64_0_0 : S31x64.Slices ![0, 0] S16x64
  slices_S31x64_S15x64_16_0 : S31x64.Slices ![16, 0] S15x64
  inb_S8192x48_S8192x48_0_0 : ∀ a, (![0, 0] : Fin 2 → Nat) a + S8192x48.size a ≤ S8192x48.size a
  h_S8192x48 : 0 < S8192x48.numel
  slices_S8192x48_o0_0_S8192x32 : S8192x48.Slices ![0, 0] S8192x32
  slices_S8192x48_o0_32_S8192x16 : S8192x48.Slices ![0, 32] S8192x16
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  slices_S8192x16_o0_0_S8192x1 : S8192x16.Slices ![0, 0] S8192x1
  slices_S8192x16_o0_1_S8192x15 : S8192x16.Slices ![0, 1] S8192x15
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S15x64_S15x64_0_0 : ∀ a, (![0, 0] : Fin 2 → Nat) a + S15x64.size a ≤ S15x64.size a
  h_S15x64 : 0 < S15x64.numel
  shapeCasts_S15x64_S15x64 : S15x64.ShapeCasts S15x64
  inb_S64x3_S64x3_0_0 : ∀ a, (![0, 0] : Fin 2 → Nat) a + S64x3.size a ≤ S64x3.size a
  h_S64x3 : 0 < S64x3.numel
  shapeCasts_S64x3_S64x3 : S64x3.ShapeCasts S64x3
  concatenates_S8192x3_S8192x1_S8192x4_d1 : Shape.Concatenates [S8192x3, S8192x1] S8192x4 1
  shapeCasts_S8192x4_S256x128 : S8192x4.ShapeCasts S256x128
  inb_S256x128_S256x128_0_0 : ∀ a, (![0, 0] : Fin 2 → Nat) a + S256x128.size a ≤ S256x128.size a
  h_S256x128 : 0 < S256x128.numel
  shapeCasts_S65536x128_S2097152x4 : S65536x128.ShapeCasts S2097152x4
  dot_S8192x32_S32x64_S8192x64_1_0_0_1_n_n_wf : DotDims.WF S8192x32 S32x64 S8192x64 [1] [0] [0] [1] [] []
  dot_S8192x64_S64x64_S8192x64_1_0_0_1_n_n_wf : DotDims.WF S8192x64 S64x64 S8192x64 [1] [0] [0] [1] [] []
  dot_S8192x64_S64x16_S8192x16_1_0_0_1_n_n_wf : DotDims.WF S8192x64 S64x16 S8192x16 [1] [0] [0] [1] [] []
  dot_S8192x16_S16x64_S8192x64_1_0_0_1_n_n_wf : DotDims.WF S8192x16 S16x64 S8192x64 [1] [0] [0] [1] [] []
  dot_S8192x15_S15x64_S8192x64_1_0_0_1_n_n_wf : DotDims.WF S8192x15 S15x64 S8192x64 [1] [0] [0] [1] [] []
  dot_S8192x64_S64x3_S8192x3_1_0_0_1_n_n_wf : DotDims.WF S8192x64 S64x3 S8192x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x48.size a ≤ S2097152x48.size a
  hwx0_0 : ∀ i : grid0.Coords, EltTy.bits .f32 = 32 ∨ (Rect.block (s := S2097152x48) S8192x48.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .bf16 = 32 ∨ (Rect.block (s := S32x64) S32x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .bf16 = 32 ∨ (Rect.block (s := S64x16) S64x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x64.size a ≤ S16x64.size a
  hwx0_4 : ∀ i : grid0.Coords, EltTy.bits .bf16 = 32 ∨ (Rect.block (s := S16x64) S16x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S15x64.size a ≤ S15x64.size a
  hwx0_5 : ∀ i : grid0.Coords, EltTy.bits .bf16 = 32 ∨ (Rect.block (s := S15x64) S15x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .bf16 = 32 ∨ (Rect.block (s := S64x64) S64x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .bf16 = 32 ∨ (Rect.block (s := S64x64) S64x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x3.size a ≤ S64x3.size a
  hwx0_8 : ∀ i : grid0.Coords, EltTy.bits .bf16 = 32 ∨ (Rect.block (s := S64x3) S64x3.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S65536x128.size a
  hwx0_9 : ∀ i : grid0.Coords, EltTy.bits .f32 = 32 ∨ (Rect.block (s := S65536x128) S256x128.size (cc0_transform_9 i) (hinb0_9 i)).WholeWords (EltTy.packing .f32)

variable [Facts₀]

def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf
def dot_S8192x16_S16x64_S8192x64_1_0_0_1_n_n : DotDims S8192x16 S16x64 S8192x64 where
  lhsContracting := [1]
  rhsContracting := [0]
  lhsNonContracting := [0]
  rhsNonContracting := [1]
  lhsBatch := []
  rhsBatch := []
  wf := dot_S8192x16_S16x64_S8192x64_1_0_0_1_n_n_wf
def dot_S8192x15_S15x64_S8192x64_1_0_0_1_n_n : DotDims S8192x15 S15x64 S8192x64 where
  lhsContracting := [1]
  rhsContracting := [0]
  lhsNonContracting := [0]
  rhsNonContracting := [1]
  lhsBatch := []
  rhsBatch := []
  wf := dot_S8192x15_S15x64_S8192x64_1_0_0_1_n_n_wf
def dot_S8192x64_S64x3_S8192x3_1_0_0_1_n_n : DotDims S8192x64 S64x3 S8192x3 where
  lhsContracting := [1]
  rhsContracting := [0]
  lhsNonContracting := [0]
  rhsNonContracting := [1]
  lhsBatch := []
  rhsBatch := []
  wf := dot_S8192x64_S64x3_S8192x3_1_0_0_1_n_n_wf

abbrev win0_0 : Pipeline.Window sig grid0 :=
  Pipeline.Window.ofSpec (Memref.whole main_arg0) S8192x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S16x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S15x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S64x3.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S256x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2097152x48 : Shape := ⟨2, ![2097152, 48]⟩
abbrev S32x64 : Shape := ⟨2, ![32, 64]⟩
abbrev S64x64 : Shape := ⟨2, ![64, 64]⟩
abbrev S64x16 : Shape := ⟨2, ![64, 16]⟩
abbrev S31x64 : Shape := ⟨2, ![31, 64]⟩
abbrev S64x3 : Shape := ⟨2, ![64, 3]⟩
abbrev S2097152x32 : Shape := ⟨2, ![2097152, 32]⟩
abbrev S2097152x16 : Shape := ⟨2, ![2097152, 16]⟩
abbrev S2097152x64 : Shape := ⟨2, ![2097152, 64]⟩
abbrev S_ : Shape := ⟨0, ![]⟩
abbrev S2097152x1 : Shape := ⟨2, ![2097152, 1]⟩
abbrev S2097152 : Shape := ⟨1, ![2097152]⟩
abbrev S2097152x15 : Shape := ⟨2, ![2097152, 15]⟩
abbrev S2097152x31 : Shape := ⟨2, ![2097152, 31]⟩
abbrev S2097152x3 : Shape := ⟨2, ![2097152, 3]⟩
abbrev S2097152x4 : Shape := ⟨2, ![2097152, 4]⟩

abbrev nBuf : Space → Nat
  | .hbm => 38
  | .vmem => 0
  | .smem => 0
  | _ => 0

abbrev bufTy : (tb : Table) → Fin (tcTables nBuf tb) → BufTy
  | .hbm, ⟨0, _⟩ => ⟨S2097152x48, .f32⟩
  | .hbm, ⟨1, _⟩ => ⟨S32x64, .f32⟩
  | .hbm, ⟨2, _⟩ => ⟨S64x64, .f32⟩
  | .hbm, ⟨3, _⟩ => ⟨S64x16, .f32⟩
  | .hbm, ⟨4, _⟩ => ⟨S31x64, .f32⟩
  | .hbm, ⟨5, _⟩ => ⟨S64x64, .f32⟩
  | .hbm, ⟨6, _⟩ => ⟨S64x64, .f32⟩
  | .hbm, ⟨7, _⟩ => ⟨S64x3, .f32⟩
  | .hbm, ⟨8, _⟩ => ⟨S2097152x32, .f32⟩
  | .hbm, ⟨9, _⟩ => ⟨S2097152x16, .f32⟩
  | .hbm, ⟨10, _⟩ => ⟨S2097152x64, .f32⟩
  | .hbm, ⟨11, _⟩ => ⟨S_, .f32⟩
  | .hbm, ⟨12, _⟩ => ⟨S2097152x64, .f32⟩
  | .hbm, ⟨13, _⟩ => ⟨S2097152x64, .f32⟩
  | .hbm, ⟨14, _⟩ => ⟨S2097152x64, .f32⟩
  | .hbm, ⟨15, _⟩ => ⟨S_, .f32⟩
  | .hbm, ⟨16, _⟩ => ⟨S2097152x64, .f32⟩
  | .hbm, ⟨17, _⟩ => ⟨S2097152x64, .f32⟩
  | .hbm, ⟨18, _⟩ => ⟨S2097152x16, .f32⟩
  | .hbm, ⟨19, _⟩ => ⟨S2097152x1, .f32⟩
  | .hbm, ⟨20, _⟩ => ⟨S2097152, .f32⟩
  | .hbm, ⟨21, _⟩ => ⟨S2097152x15, .f32⟩
  | .hbm, ⟨22, _⟩ => ⟨S2097152x31, .f32⟩
  | .hbm, ⟨23, _⟩ => ⟨S2097152x64, .f32⟩
  | .hbm, ⟨24, _⟩ => ⟨S_, .f32⟩
  | .hbm, ⟨25, _⟩ => ⟨S2097152x64, .f32⟩
  | .hbm, ⟨26, _⟩ => ⟨S2097152x64, .f32⟩
  | .hbm, ⟨27, _⟩ => ⟨S2097152x64, .f32⟩
  | .hbm, ⟨28, _⟩ => ⟨S_, .f32⟩
  | .hbm, ⟨29, _⟩ => ⟨S2097152x64, .f32⟩
  | .hbm, ⟨30, _⟩ => ⟨S2097152x64, .f32⟩
  | .hbm, ⟨31, _⟩ => ⟨S2097152x64, .f32⟩
  | .hbm, ⟨32, _⟩ => ⟨S_, .f32⟩
  | .hbm, ⟨33, _⟩ => ⟨S2097152x64, .f32⟩
  | .hbm, ⟨34, _⟩ => ⟨S2097152x64, .f32⟩
  | .hbm, ⟨35, _⟩ => ⟨S2097152x3, .f32⟩
  | .hbm, ⟨36, _⟩ => ⟨S2097152x1, .f32⟩
  | .hbm, ⟨37, _⟩ => ⟨S2097152x4, .f32⟩
  | _, _ => ⟨S2097152x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_cst : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_call1_cst : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call2_cst : Ref sig .tc := ⟨.hbm, 24, rfl⟩
abbrev main_call2_v0 : Ref sig .tc := ⟨.hbm, 25, rfl⟩
abbrev main_v12 : Ref sig .tc := ⟨.hbm, 26, rfl⟩
abbrev main_v13 : Ref sig .tc := ⟨.hbm, 27, rfl⟩
abbrev main_call3_cst : Ref sig .tc := ⟨.hbm, 28, rfl⟩
abbrev main_call3_v0 : Ref sig .tc := ⟨.hbm, 29, rfl⟩
abbrev main_v14 : Ref sig .tc := ⟨.hbm, 30, rfl⟩
abbrev main_v15 : Ref sig .tc := ⟨.hbm, 31, rfl⟩
abbrev main_call4_cst : Ref sig .tc := ⟨.hbm, 32, rfl⟩
abbrev main_call4_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩

abbrev nD : Nat := 1
abbrev τ : Topo := Topo.v7x

variable {F : FTy → Type} [FloatOps F]

class Facts₀ : Prop where
  slices_S2097152x48_S2097152x32_0_0 : S2097152x48.Slices ![0, 0] S2097152x32
  slices_S2097152x48_S2097152x16_0_32 : S2097152x48.Slices ![0, 32] S2097152x16
  bcast_S_S2097152x64 : S_.BroadcastsInDim S2097152x64 (![] : Fin 0 → Fin S2097152x64.rank)
  slices_S2097152x16_S2097152x1_0_0 : S2097152x16.Slices ![0, 0] S2097152x1
  shapeCasts_S2097152x1_S2097152 : S2097152x1.ShapeCasts S2097152
  slices_S2097152x16_S2097152x15_0_1 : S2097152x16.Slices ![0, 1] S2097152x15
  concatenates_S2097152x16_S2097152x15_S2097152x31_d1 : Shape.Concatenates [S2097152x16, S2097152x15] S2097152x31 1
  bcast_S2097152_S2097152x1_0 : S2097152.BroadcastsInDim S2097152x1 (![0] : Fin 1 → Fin S2097152x1.rank)
  concatenates_S2097152x3_S2097152x1_S2097152x4_d1 : Shape.Concatenates [S2097152x3, S2097152x1] S2097152x4 1
  dot_S2097152x32_S32x64_S2097152x64_1_0_0_1_n_n_wf : DotDims.WF S2097152x32 S32x64 S2097152x64 [1] [0] [0] [1] [] []
  dot_S2097152x64_S64x64_S2097152x64_1_0_0_1_n_n_wf : DotDims.WF S2097152x64 S64x64 S2097152x64 [1] [0] [0] [1] [] []
  dot_S2097152x64_S64x16_S2097152x16_1_0_0_1_n_n_wf : DotDims.WF S2097152x64 S64x16 S2097152x16 [1] [0] [0] [1] [] []
  dot_S2097152x31_S31x64_S2097152x64_1_0_0_1_n_n_wf : DotDims.WF S2097152x31 S31x64 S2097152x64 [1] [0] [0] [1] [] []
  dot_S2097152x64_S64x3_S2097152x3_1_0_0_1_n_n_wf : DotDims.WF S2097152x64 S64x3 S2097152x3 [1] [0] [0] [1] [] []

variable [Facts₀]

def dot_S2097152x32_S32x64_S2097152x64_1_0_0_1_n_n : DotDims S2097152x32 S32x64 S2097152x64 where
  lhsContracting := [1]
  rhsContracting := [0]
  lhsNonContracting := [0]
  rhsNonContracting := [1]
  lhsBatch := []
  rhsBatch := []
  wf := dot_S2097152x32_S32x64_S2097152x64_1_0_0_1_n_n_wf
def dot_S2097152x64_S64x64_S2097152x64_1_0_0_1_n_n : DotDims S2097152x64 S64x64 S2097152x64 where
  lhsContracting := [1]
  rhsContracting := [0]
  lhsNonContracting := [0]
  rhsNonContracting := [1]
  lhsBatch := []
  rhsBatch := []
  wf := dot_S2097152x64_S64x64_S2097152x64_1_0_0_1_n_n_wf
def dot_S2097152x64_S64x16_S2097152x16_1_0_0_1_n_n : DotDims S2097152x64 S64x16 S2097152x16 where
  lhsContracting := [1]
  rhsContracting := [0]
  lhsNonContracting := [0]
  rhsNonContracting := [1]
  lhsBatch := []
  rhsBatch := []
  wf := dot_S2097152x64_S64x16_S2097152x16_1_0_0_1_n_n_wf
def dot_S2097152x31_S31x64_S2097152x64_1_0_0_1_n_n : DotDims S2097152x31 S31x64 S2097152x64 where
  lhsContracting := [1]
  rhsContracting := [0]
  lhsNonContracting := [0]
  rhsNonContracting := [1]
  lhsBatch := []
  rhsBatch := []
  wf := dot_S2097152x31_S31x64_S2097152x64_1_0_0_1_n_n_wf
def dot_S2097152x64_S64x3_S2097152x3_1_0_0_1_n_n : DotDims S2097152x64 S64x3 S2097152x3 where
  lhsContracting := [1]
  rhsContracting := [0]
  lhsNonContracting := [0]
  rhsNonContracting := [1]
  lhsBatch := []
  rhsBatch := []
  wf := dot_S2097152x64_S64x3_S2097152x3_1_0_0_1_n_n_wf

class Facts : Prop extends Facts₀ where

variable [Facts]
-- ==== Proof.Spec.lean ====
/-
  The function both programs compute, stated with no program in sight: one row of the network.

  A row `x : Fin 48 → EReal` splits into 32 position features and 16 view features. The density net is three
  bias-free layers 32 → 64 → 64 → 16 with `max · 0` between them; its output's first entry is the density, the
  other fifteen are geometry features. The colour net is four bias-free layers (16 + 15) → 64 → 64 → 64 → 3, again with
  `max · 0` between them; its first layer is written here as the SUM of two products, the view features against
  the first sixteen rows of its weight and the geometry features against the last fifteen. The result row is the
  three colours followed by the density.
-/
import Idealize.ShloMosaic.PureOps.Ideal
import Idealize.ShloMosaic.Lib.ValueIdx

noncomputable section

open scoped BigOperators
open Idealize.ShloMosaic Idealize.ShloMosaic.ValueIdx

namespace Cert.Mlp

/-- A `K × N` matrix of extended reals, indexed as the programs' rank-2 arrays are. -/
abbrev Mat (K N : Nat) : Type := (⟨2, ![K, N]⟩ : Shape).Idx → EReal

/-- Two rank-2 indices with equal coordinates are equal. -/
theorem idx2_ext {n0 n1 : Nat} (i j : (⟨2, ![n0, n1]⟩ : Shape).Idx) (h0 : (i 0).val = (j 0).val)
    (h1 : (i 1).val = (j 1).val) : i = j :=
  funext fun a => Fin.ext (by match a with | ⟨0, _⟩ => exact h0 | ⟨1, _⟩ => exact h1)

/-- Row `r` of a matrix. -/
def rowOf {R C : Nat} (x : Mat R C) (r : Nat) (hr : r < R) : Fin C → EReal := fun k => x (ix2 ⟨r, hr⟩ k)

/-- One bias-free layer: the row times the weight matrix. -/
def dense {K N : Nat} (h : Fin K → EReal) (W : Mat K N) : Fin N → EReal :=
  fun j => ∑ k : Fin K, h k * W (ix2 k j)

/-- The activation: the maximum with the value the zero word denotes. -/
def relu {N : Nat} (h : Fin N → EReal) : Fin N → EReal :=
  fun j => max (h j) (Ideal.ofBits .f32 0x00000000#32)

/-- The 32 position features of a row. -/
def pts (x : Fin 48 → EReal) : Fin 32 → EReal := fun k => x ⟨k.val, by have := k.isLt; omega⟩
/-- The 16 view features of a row. -/
def views (x : Fin 48 → EReal) : Fin 16 → EReal := fun k => x ⟨32 + k.val, by have := k.isLt; omega⟩

/-- The density net's sixteen outputs. -/
def sigmaNet (x : Fin 48 → EReal) (s0 : Mat 32 64) (s1 : Mat 64 64) (s2 : Mat 64 16) : Fin 16 → EReal :=
  dense (relu (dense (relu (dense (pts x) s0)) s1)) s2

/-- The fifteen geometry features: the density net's outputs but the first. -/
def geo (h : Fin 16 → EReal) : Fin 15 → EReal := fun k => h ⟨1 + k.val, by have := k.isLt; omega⟩

/-- The colour net's first layer before its activation: two products summed. -/
def mix (v : Fin 16 → EReal) (g : Fin 15 → EReal) (c0v : Mat 16 64) (c0g : Mat 15 64) : Fin 64 → EReal :=
  fun j => dense v c0v j + dense g c0g j

/-- The colour net's three outputs. -/
def colorNet (v : Fin 16 → EReal) (g : Fin 15 → EReal) (c0v : Mat 16 64) (c0g : Mat 15 64) (c1 c2 : Mat 64 64)
    (c3 : Mat 64 3) : Fin 3 → EReal :=
  dense (relu (dense (relu (dense (relu (mix v g c0v c0g)) c1)) c2)) c3

/-- The result row: three colours, then the density. -/
def row (x : Fin 48 → EReal) (s0 : Mat 32 64) (s1 : Mat 64 64) (s2 : Mat 64 16) (c0v : Mat 16 64) (c0g : Mat 15 64)
    (c1 c2 : Mat 64 64) (c3 : Mat 64 3) : Fin 4 → EReal := fun j =>
  if h : j.val < 3 then colorNet (views x) (geo (sigmaNet x s0 s1 s2)) c0v c0g c1 c2 c3 ⟨j.val, h⟩
  else sigmaNet x s0 s1 s2 ⟨0, by omega⟩

/-- The first sixteen rows of the colour net's first weight. -/
def top (c0 : Mat 31 64) : Mat 16 64 :=
  fun i => c0 (ix2 ⟨(i 0).val, by have := idx2_lt0 i; omega⟩ ⟨(i 1).val, idx2_lt1 i⟩)
/-- Its last fifteen rows. -/
def bot (c0 : Mat 31 64) : Mat 15 64 :=
  fun i => c0 (ix2 ⟨16 + (i 0).val, by have := idx2_lt0 i; omega⟩ ⟨(i 1).val, idx2_lt1 i⟩)

/-- The whole result: entry `(n, j)` is entry `j` of the network's row for row `n` of `x`. -/
def G (x : Mat 2097152 48) (s0 : Mat 32 64) (s1 : Mat 64 64) (s2 : Mat 64 16) (c0 : Mat 31 64) (c1 c2 : Mat 64 64)
    (c3 : Mat 64 3) : Mat 2097152 4 := fun i =>
  row (rowOf x (i 0).val (idx2_lt0 i)) s0 s1 s2 (top c0) (bot c0) c1 c2 c3 ⟨(i 1).val, idx2_lt1 i⟩

/-- A sum over 31 terms is the sum of its first sixteen and its last fifteen: addition of extended reals is
    commutative and associative, and nothing else is used. -/
theorem sum_split (f : Fin 31 → EReal) :
    ∑ k : Fin 31, f k = (∑ k : Fin 16, f ⟨k.val, by have := k.isLt; omega⟩) + ∑ k : Fin 15, f ⟨16 + k.val, by have := k.isLt; omega⟩ := by
  have h := Fin.sum_univ_add (a := 16) (b := 15) f
  rw [h]
  rfl

end Cert.Mlp

end
-- ==== Proof.RefValue.lean ====
/-
  The reference, read at an index, is the network's row function.

  Every operation of the reference acts row by row: entry `(n, j)` of each intermediate array depends on row `n` of
  `x` only. Stage by stage, each intermediate array at `(n, j)` is the corresponding layer of `Cert.Mlp` applied
  to that row, at `j`. The one place where the two programs are arranged differently is the colour net's first
  layer: the reference multiplies the 31-wide concatenation of view and geometry features by the whole weight, and
  the sum over those 31 terms splits into the first sixteen (view features against the weight's first sixteen rows)
  and the last fifteen (geometry features against its last fifteen rows).
-/
import proofs.«159029_j9689446220225_2_alg».proof.Proof.Gen.ReferenceIdeal.Read
import proofs.«159029_j9689446220225_2_alg».proof.Proof.Spec

noncomputable section

open scoped BigOperators
open Idealize.ShloMosaic Idealize.ShloMosaic.ValueIdx

namespace Cert.ReferenceIdeal.RefValue

open Cert.ReferenceIdeal Cert.ReferenceIdeal.Read Cert.Mlp

theorem dense_apply {K N : Nat} (h : Fin K → EReal) (W : Mat K N) (j : Fin N) :
    dense h W j = ∑ k : Fin K, h k * W (ix2 k j) := rfl

theorem rowOf_congr {R C : Nat} (x : Mat R C) {r r' : Nat} (e : r = r') (hr : r < R) (hr' : r' < R) :
    rowOf x r hr = rowOf x r' hr' := by subst e; rfl

variable (x0 : Mat 2097152 48) (x1 : Mat 32 64) (x2 : Mat 64 64) (x3 : Mat 64 16) (x4 : Mat 31 64)
  (x5 x6 : Mat 64 64) (x7 : Mat 64 3)

/-! ## The density net -/

theorem v2_eq (i : S2097152x64.Idx) :
    val_main_v2 (F := Ideal) x0 x1 i = dense (pts (rowOf x0 (i 0).val (idx2_lt0 i))) x1 ⟨(i 1).val, idx2_lt1 i⟩ := by
  rw [val_main_v2_apply]
  refine Eq.trans ?_ (dense_apply _ _ _).symm
  refine Finset.sum_congr rfl fun k _ => ?_
  rw [val_main_v0_apply]
  have e1 : x0 (idx_main_v0 (lidx_main_v2 i k)) = pts (rowOf x0 (i 0).val (idx2_lt0 i)) k := by
    unfold pts rowOf; exact congrArg x0 (idx2_ext _ _ rfl rfl)
  have e2 : ridx_main_v2 i k = ix2 k ⟨(i 1).val, idx2_lt1 i⟩ := idx2_ext _ _ rfl rfl
  rw [e1, e2]

theorem v3_eq (i : S2097152x64.Idx) :
    val_main_v3 (F := Ideal) x0 x1 i
      = relu (dense (pts (rowOf x0 (i 0).val (idx2_lt0 i))) x1) ⟨(i 1).val, idx2_lt1 i⟩ := by
  rw [val_main_v3_apply, val_main_call0_v0_apply, val_main_call0_cst_apply, v2_eq]
  rfl

theorem v4_eq (i : S2097152x64.Idx) :
    val_main_v4 (F := Ideal) x0 x1 x2 i
      = dense (relu (dense (pts (rowOf x0 (i 0).val (idx2_lt0 i))) x1)) x2 ⟨(i 1).val, idx2_lt1 i⟩ := by
  rw [val_main_v4_apply]
  refine Eq.trans ?_ (dense_apply _ _ _).symm
  refine Finset.sum_congr rfl fun k _ => ?_
  rw [v3_eq]
  have e2 : ridx_main_v4 i k = ix2 k ⟨(i 1).val, idx2_lt1 i⟩ := idx2_ext _ _ rfl rfl
  rw [e2]

theorem v5_eq (i : S2097152x64.Idx) :
    val_main_v5 (F := Ideal) x0 x1 x2 i
      = relu (dense (relu (dense (pts (rowOf x0 (i 0).val (idx2_lt0 i))) x1)) x2) ⟨(i 1).val, idx2_lt1 i⟩ := by
  rw [val_main_v5_apply, val_main_call1_v0_apply, val_main_call1_cst_apply, v4_eq]
  rfl

theorem v6_eq (i : S2097152x16.Idx) :
    val_main_v6 (F := Ideal) x0 x1 x2 x3 i
      = sigmaNet (rowOf x0 (i 0).val (idx2_lt0 i)) x1 x2 x3 ⟨(i 1).val, idx2_lt1 i⟩ := by
  rw [val_main_v6_apply]
  unfold sigmaNet
  refine Eq.trans ?_ (dense_apply _ _ _).symm
  refine Finset.sum_congr rfl fun k _ => ?_
  rw [v5_eq]
  have e2 : ridx_main_v6 i k = ix2 k ⟨(i 1).val, idx2_lt1 i⟩ := idx2_ext _ _ rfl rfl
  rw [e2]

/-- The density: column 0 of the density net's output, … -/
theorem v7_eq (i : S2097152x1.Idx) :
    val_main_v7 (F := Ideal) x0 x1 x2 x3 i
      = sigmaNet (rowOf x0 (i 0).val (idx2_lt0 i)) x1 x2 x3 ⟨0, by omega⟩ := by
  rw [val_main_v7_apply, v6_eq]
  exact congrArg (sigmaNet _ x1 x2 x3) (Fin.ext (by show (i 1).val = 0; have := idx2_lt1 i; omega))

/-- … flattened to one axis … -/
theorem v8_eq (i : S2097152.Idx) :
    val_main_v8 (F := Ideal) x0 x1 x2 x3 i
      = sigmaNet (rowOf x0 (i 0).val (i 0).isLt) x1 x2 x3 ⟨0, by omega⟩ := by
  rw [val_main_v8_apply, v7_eq]
  rw [rowOf_congr x0 (show ((idx_main_v8 i) 0).val = (i 0).val from Nat.div_one _) _ (i 0).isLt]

/-- … and given its unit axis back. -/
theorem v18_eq (i : S2097152x1.Idx) :
    val_main_v18 (F := Ideal) x0 x1 x2 x3 i
      = sigmaNet (rowOf x0 (i 0).val (idx2_lt0 i)) x1 x2 x3 ⟨0, by omega⟩ := by
  rw [val_main_v18_apply, v8_eq]

/-- The geometry features: the other fifteen columns. -/
theorem v9_eq (i : S2097152x15.Idx) :
    val_main_v9 (F := Ideal) x0 x1 x2 x3 i
      = geo (sigmaNet (rowOf x0 (i 0).val (idx2_lt0 i)) x1 x2 x3) ⟨(i 1).val, idx2_lt1 i⟩ := by
  rw [val_main_v9_apply, v6_eq]
  rfl

/-! ## The colour net -/

theorem v1_eq (i : S2097152x16.Idx) :
    val_main_v1 (F := Ideal) x0 i = views (rowOf x0 (i 0).val (idx2_lt0 i)) ⟨(i 1).val, idx2_lt1 i⟩ := by
  rw [val_main_v1_apply]
  unfold views rowOf
  exact congrArg x0 (idx2_ext _ _ rfl rfl)

/-- The concatenation's first sixteen columns are the view features … -/
theorem v10_left (i : S2097152x31.Idx) (q : Fin 16) (h : (i 1).val = q.val) :
    val_main_v10 (F := Ideal) x0 x1 x2 x3 i = views (rowOf x0 (i 0).val (idx2_lt0 i)) q := by
  unfold val_main_v10
  refine (concatenate_pair_apply_left (s₁ := S2097152x16) (s₂ := S2097152x15) 1 _ _ _ i rfl (ix2 ⟨(i 0).val, idx2_lt0 i⟩ q)
    (fun b => by match b with | ⟨0, _⟩ => rfl | ⟨1, _⟩ => exact h.symm)).trans ?_
  rw [v1_eq]

/-- … and its last fifteen the geometry features. -/
theorem v10_right (i : S2097152x31.Idx) (q : Fin 15) (h : (i 1).val = 16 + q.val) :
    val_main_v10 (F := Ideal) x0 x1 x2 x3 i = geo (sigmaNet (rowOf x0 (i 0).val (idx2_lt0 i)) x1 x2 x3) q := by
  unfold val_main_v10
  refine (concatenate_pair_apply_right (s₁ := S2097152x16) (s₂ := S2097152x15) 1 _ _ _ i rfl rfl (ix2 ⟨(i 0).val, idx2_lt0 i⟩ q)
    (fun b hb => by match b with | ⟨0, _⟩ => rfl | ⟨1, _⟩ => exact absurd rfl hb)
    (by show q.val + 16 = (i 1).val; omega)).trans ?_
  rw [v9_eq]

/-- The first layer: the 31-term sum, split after its sixteenth term. -/
theorem v11_eq (i : S2097152x64.Idx) :
    val_main_v11 (F := Ideal) x0 x1 x2 x3 x4 i
      = mix (views (rowOf x0 (i 0).val (idx2_lt0 i))) (geo (sigmaNet (rowOf x0 (i 0).val (idx2_lt0 i)) x1 x2 x3))
          (top x4) (bot x4) ⟨(i 1).val, idx2_lt1 i⟩ := by
  rw [val_main_v11_apply, sum_split]
  unfold mix
  congr 1
  · refine Eq.trans ?_ (dense_apply _ _ _).symm
    refine Finset.sum_congr rfl fun k _ => ?_
    dsimp only
    rw [v10_left x0 x1 x2 x3 _ k rfl]
    have e2 : x4 (ridx_main_v11 i ⟨k.val, by have := k.isLt; omega⟩) = top x4 (ix2 k ⟨(i 1).val, idx2_lt1 i⟩) := by
      unfold top; exact congrArg x4 (idx2_ext _ _ rfl rfl)
    rw [e2]
  · refine Eq.trans ?_ (dense_apply _ _ _).symm
    refine Finset.sum_congr rfl fun k _ => ?_
    dsimp only
    rw [v10_right x0 x1 x2 x3 _ k rfl]
    have e2 : x4 (ridx_main_v11 i ⟨16 + k.val, by have := k.isLt; omega⟩) = bot x4 (ix2 k ⟨(i 1).val, idx2_lt1 i⟩) := by
      unfold bot; exact congrArg x4 (idx2_ext _ _ rfl rfl)
    rw [e2]

theorem v12_eq (i : S2097152x64.Idx) :
    val_main_v12 (F := Ideal) x0 x1 x2 x3 x4 i
      = relu (mix (views (rowOf x0 (i 0).val (idx2_lt0 i))) (geo (sigmaNet (rowOf x0 (i 0).val (idx2_lt0 i)) x1 x2 x3))
          (top x4) (bot x4)) ⟨(i 1).val, idx2_lt1 i⟩ := by
  rw [val_main_v12_apply, val_main_call2_v0_apply, val_main_call2_cst_apply, v11_eq]
  rfl

theorem v13_eq (i : S2097152x64.Idx) :
    val_main_v13 (F := Ideal) x0 x1 x2 x3 x4 x5 i
      = dense (relu (mix (views (rowOf x0 (i 0).val (idx2_lt0 i))) (geo (sigmaNet (rowOf x0 (i 0).val (idx2_lt0 i)) x1 x2 x3))
          (top x4) (bot x4))) x5 ⟨(i 1).val, idx2_lt1 i⟩ := by
  rw [val_main_v13_apply]
  refine Eq.trans ?_ (dense_apply _ _ _).symm
  refine Finset.sum_congr rfl fun k _ => ?_
  rw [v12_eq]
  have e2 : ridx_main_v13 i k = ix2 k ⟨(i 1).val, idx2_lt1 i⟩ := idx2_ext _ _ rfl rfl
  rw [e2]

theorem v14_eq (i : S2097152x64.Idx) :
    val_main_v14 (F := Ideal) x0 x1 x2 x3 x4 x5 i
      = relu (dense (relu (mix (views (rowOf x0 (i 0).val (idx2_lt0 i))) (geo (sigmaNet (rowOf x0 (i 0).val (idx2_lt0 i)) x1 x2 x3))
          (top x4) (bot x4))) x5) ⟨(i 1).val, idx2_lt1 i⟩ := by
  rw [val_main_v14_apply, val_main_call3_v0_apply, val_main_call3_cst_apply, v13_eq]
  rfl

theorem v15_eq (i : S2097152x64.Idx) :
    val_main_v15 (F := Ideal) x0 x1 x2 x3 x4 x5 x6 i
      = dense (relu (dense (relu (mix (views (rowOf x0 (i 0).val (idx2_lt0 i))) (geo (sigmaNet (rowOf x0 (i 0).val (idx2_lt0 i)) x1 x2 x3))
          (top x4) (bot x4))) x5)) x6 ⟨(i 1).val, idx2_lt1 i⟩ := by
  rw [val_main_v15_apply]
  refine Eq.trans ?_ (dense_apply _ _ _).symm
  refine Finset.sum_congr rfl fun k _ => ?_
  rw [v14_eq]
  have e2 : ridx_main_v15 i k = ix2 k ⟨(i 1).val, idx2_lt1 i⟩ := idx2_ext _ _ rfl rfl
  rw [e2]

theorem v16_eq (i : S2097152x64.Idx) :
    val_main_v16 (F := Ideal) x0 x1 x2 x3 x4 x5 x6 i
      = relu (dense (relu (dense (relu (mix (views (rowOf x0 (i 0).val (idx2_lt0 i))) (geo (sigmaNet (rowOf x0 (i 0).val (idx2_lt0 i)) x1 x2 x3))
          (top x4) (bot x4))) x5)) x6) ⟨(i 1).val, idx2_lt1 i⟩ := by
  rw [val_main_v16_apply, val_main_call4_v0_apply, val_main_call4_cst_apply, v15_eq]
  rfl

theorem v17_eq (i : S2097152x3.Idx) :
    val_main_v17 (F := Ideal) x0 x1 x2 x3 x4 x5 x6 x7 i
      = colorNet (views (rowOf x0 (i 0).val (idx2_lt0 i))) (geo (sigmaNet (rowOf x0 (i 0).val (idx2_lt0 i)) x1 x2 x3))
          (top x4) (bot x4) x5 x6 x7 ⟨(i 1).val, idx2_lt1 i⟩ := by
  rw [val_main_v17_apply]
  unfold colorNet
  refine Eq.trans ?_ (dense_apply _ _ _).symm
  refine Finset.sum_congr rfl fun k _ => ?_
  rw [v16_eq]
  have e2 : ridx_main_v17 i k = ix2 k ⟨(i 1).val, idx2_lt1 i⟩ := idx2_ext _ _ rfl rfl
  rw [e2]

/-! ## The result -/

/-- The reference's result is the network's row function of each row: three colours, then the density. -/
theorem result_eq :
    val_main_v19 (F := Ideal) x0 x1 x2 x3 x4 x5 x6 x7 = G x0 x1 x2 x3 x4 x5 x6 x7 := by
  funext i
  unfold G row val_main_v19
  by_cases h : (i 1).val < 3
  · rw [dif_pos h]
    refine (concatenate_pair_apply_left (s₁ := S2097152x3) (s₂ := S2097152x1) 1 _ _ _ i rfl (ix2 ⟨(i 0).val, idx2_lt0 i⟩ ⟨(i 1).val, h⟩)
      (fun b => by match b with | ⟨0, _⟩ => rfl | ⟨1, _⟩ => rfl)).trans ?_
    rw [v17_eq]
  · rw [dif_neg h]
    have h1 := idx2_lt1 i
    refine (concatenate_pair_apply_right (s₁ := S2097152x3) (s₂ := S2097152x1) 1 _ _ _ i rfl rfl (ix2 ⟨(i 0).val, idx2_lt0 i⟩ ⟨(i 1).val - 3, by omega⟩)
      (fun b hb => by match b with | ⟨0, _⟩ => rfl | ⟨1, _⟩ => exact absurd rfl hb)
      (by show (i 1).val - 3 + 3 = (i 1).val; omega)).trans ?_
    rw [v18_eq]

end Cert.ReferenceIdeal.RefValue

end
-- ==== Proof.BlockValue.lean ====
/-
  What the kernel's body stores, as a function of the blocks it loads.

  Every vector the body computes from its row block `x0` (8192 rows of 48 features) is given ROW BY ROW: row `n` of
  each intermediate depends on row `n` of `x0` only. A product with a weight block into a zero accumulator is, row by
  row, the bias-free layer `dense`; a change of float format is the identity on extended reals; the maximum with the
  zero splat is `relu`; the column slices are `pts`, `views`, the density column and `geo`. So the 8192 × 4 value the
  body assembles has the network's result row `row` as its row `n`, and the 256 × 128 value it stores — the same
  entries in row-major order — has at `(r, c)` entry `c % 4` of row `32 r + c / 4`.
-/
import proofs.«159029_j9689446220225_2_alg».proof.Proof.Gen.KernelIdeal.Skeleton
import proofs.«159029_j9689446220225_2_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.BlockValue

open Cert.KernelIdeal Cert.KernelIdeal.Gen Cert.Mlp

/-- A matrix given row by row. -/
def byRows {R C : Nat} (f : (r : Nat) → r < R → Fin C → EReal) : Mat R C :=
  fun j => f (j 0).val (idx2_lt0 j) ⟨(j 1).val, idx2_lt1 j⟩

theorem rowOf_byRows {R C : Nat} (f : (r : Nat) → r < R → Fin C → EReal) (r : Nat) (hr : r < R) :
    rowOf (byRows f) r hr = f r hr := rfl

/-! ## The operations of the body, row by row -/

/-- A matrix product with one contracted axis into the zero accumulator: each row times the right operand. -/
theorem matmul_rows {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (l : FVec Ideal ⟨2, ![M, K]⟩ φ₁) (r : FVec Ideal ⟨2, ![K, N]⟩ φ₂) :
    matmul d none l r (constant ⟨2, ![M, N]⟩ .f32 0x00000000#32) = byRows (fun n hn => dense (rowOf l n hn) r) := by
  funext j
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 ⟨(j 0).val, idx2_lt0 j⟩ k :=
    idx2_ext _ _ (hl0 _ _) ((hl1 _ _).trans hk)
  have er : d.rhsIdx j ((contrEquiv1 d K hr hs).symm k) = ix2 k ⟨(j 1).val, idx2_lt1 j⟩ :=
    idx2_ext _ _ ((hr0 _ _).trans hk) (hr1 _ _)
  rw [el, er]
  rfl

theorem mm_32_64 (l : FVec Ideal S8192x32 .bf16) (r : FVec Ideal S32x64 .bf16) :
    matmul dot_S8192x32_S32x64_S8192x64_1_0_0_1_n_n none l r (constant S8192x64 .f32 0x00000000#32)
      = byRows (fun n hn => dense (rowOf l n hn) r) :=
  matmul_rows dot_S8192x32_S32x64_S8192x64_1_0_0_1_n_n rfl rfl
    (fun j q => by
      unfold DotDims.lhsIdx
      rw [dif_neg (show ¬(0 : Fin S8192x32.rank) ∈ dot_S8192x32_S32x64_S8192x64_1_0_0_1_n_n.lhsBatch by decide),
        dif_pos (show (0 : Fin S8192x32.rank) ∈ dot_S8192x32_S32x64_S8192x64_1_0_0_1_n_n.lhsNonContracting by decide)]
      rfl)
    (fun j q => dot_S8192x32_S32x64_S8192x64_1_0_0_1_n_n.lhsIdx_val_of_single rfl j q)
    (fun j q => dot_S8192x32_S32x64_S8192x64_1_0_0_1_n_n.rhsIdx_val_of_single rfl j q)
    (fun j q => by
      unfold DotDims.rhsIdx
      rw [dif_neg (show ¬(1 : Fin S32x64.rank) ∈ dot_S8192x32_S32x64_S8192x64_1_0_0_1_n_n.rhsBatch by decide),
        dif_pos (show (1 : Fin S32x64.rank) ∈ dot_S8192x32_S32x64_S8192x64_1_0_0_1_n_n.rhsNonContracting by decide)]
      rfl)
    l r

theorem mm_64_64 (l : FVec Ideal S8192x64 .bf16) (r : FVec Ideal S64x64 .bf16) :
    matmul dot_S8192x64_S64x64_S8192x64_1_0_0_1_n_n none l r (constant S8192x64 .f32 0x00000000#32)
      = byRows (fun n hn => dense (rowOf l n hn) r) :=
  matmul_rows dot_S8192x64_S64x64_S8192x64_1_0_0_1_n_n rfl rfl
    (fun j q => by
      unfold DotDims.lhsIdx
      rw [dif_neg (show ¬(0 : Fin S8192x64.rank) ∈ dot_S8192x64_S64x64_S8192x64_1_0_0_1_n_n.lhsBatch by decide),
        dif_pos (show (0 : Fin S8192x64.rank) ∈ dot_S8192x64_S64x64_S8192x64_1_0_0_1_n_n.lhsNonContracting by decide)]
      rfl)
    (fun j q => dot_S8192x64_S64x64_S8192x64_1_0_0_1_n_n.lhsIdx_val_of_single rfl j q)
    (fun j q => dot_S8192x64_S64x64_S8192x64_1_0_0_1_n_n.rhsIdx_val_of_single rfl j q)
    (fun j q => by
      unfold DotDims.rhsIdx
      rw [dif_neg (show ¬(1 : Fin S64x64.rank) ∈ dot_S8192x64_S64x64_S8192x64_1_0_0_1_n_n.rhsBatch by decide),
        dif_pos (show (1 : Fin S64x64.rank) ∈ dot_S8192x64_S64x64_S8192x64_1_0_0_1_n_n.rhsNonContracting by decide)]
      rfl)
    l r

theorem mm_64_16 (l : FVec Ideal S8192x64 .bf16) (r : FVec Ideal S64x16 .bf16) :
    matmul dot_S8192x64_S64x16_S8192x16_1_0_0_1_n_n none l r (constant S8192x16 .f32 0x00000000#32)
      = byRows (fun n hn => dense (rowOf l n hn) r) :=
  matmul_rows dot_S8192x64_S64x16_S8192x16_1_0_0_1_n_n rfl rfl
    (fun j q => by
      unfold DotDims.lhsIdx
      rw [dif_neg (show ¬(0 : Fin S8192x64.rank) ∈ dot_S8192x64_S64x16_S8192x16_1_0_0_1_n_n.lhsBatch by decide),
        dif_pos (show (0 : Fin S8192x64.rank) ∈ dot_S8192x64_S64x16_S8192x16_1_0_0_1_n_n.lhsNonContracting by decide)]
      rfl)
    (fun j q => dot_S8192x64_S64x16_S8192x16_1_0_0_1_n_n.lhsIdx_val_of_single rfl j q)
    (fun j q => dot_S8192x64_S64x16_S8192x16_1_0_0_1_n_n.rhsIdx_val_of_single rfl j q)
    (fun j q => by
      unfold DotDims.rhsIdx
      rw [dif_neg (show ¬(1 : Fin S64x16.rank) ∈ dot_S8192x64_S64x16_S8192x16_1_0_0_1_n_n.rhsBatch by decide),
        dif_pos (show (1 : Fin S64x16.rank) ∈ dot_S8192x64_S64x16_S8192x16_1_0_0_1_n_n.rhsNonContracting by decide)]
      rfl)
    l r

theorem mm_16_64 (l : FVec Ideal S8192x16 .bf16) (r : FVec Ideal S16x64 .bf16) :
    matmul dot_S8192x16_S16x64_S8192x64_1_0_0_1_n_n none l r (constant S8192x64 .f32 0x00000000#32)
      = byRows (fun n hn => dense (rowOf l n hn) r) :=
  matmul_rows dot_S8192x16_S16x64_S8192x64_1_0_0_1_n_n rfl rfl
    (fun j q => by
      unfold DotDims.lhsIdx
      rw [dif_neg (show ¬(0 : Fin S8192x16.rank) ∈ dot_S8192x16_S16x64_S8192x64_1_0_0_1_n_n.lhsBatch by decide),
        dif_pos (show (0 : Fin S8192x16.rank) ∈ dot_S8192x16_S16x64_S8192x64_1_0_0_1_n_n.lhsNonContracting by decide)]
      rfl)
    (fun j q => dot_S8192x16_S16x64_S8192x64_1_0_0_1_n_n.lhsIdx_val_of_single rfl j q)
    (fun j q => dot_S8192x16_S16x64_S8192x64_1_0_0_1_n_n.rhsIdx_val_of_single rfl j q)
    (fun j q => by
      unfold DotDims.rhsIdx
      rw [dif_neg (show ¬(1 : Fin S16x64.rank) ∈ dot_S8192x16_S16x64_S8192x64_1_0_0_1_n_n.rhsBatch by decide),
        dif_pos (show (1 : Fin S16x64.rank) ∈ dot_S8192x16_S16x64_S8192x64_1_0_0_1_n_n.rhsNonContracting by decide)]
      rfl)
    l r

theorem mm_15_64 (l : FVec Ideal S8192x15 .bf16) (r : FVec Ideal S15x64 .bf16) :
    matmul dot_S8192x15_S15x64_S8192x64_1_0_0_1_n_n none l r (constant S8192x64 .f32 0x00000000#32)
      = byRows (fun n hn => dense (rowOf l n hn) r) :=
  matmul_rows dot_S8192x15_S15x64_S8192x64_1_0_0_1_n_n rfl rfl
    (fun j q => by
      unfold DotDims.lhsIdx
      rw [dif_neg (show ¬(0 : Fin S8192x15.rank) ∈ dot_S8192x15_S15x64_S8192x64_1_0_0_1_n_n.lhsBatch by decide),
        dif_pos (show (0 : Fin S8192x15.rank) ∈ dot_S8192x15_S15x64_S8192x64_1_0_0_1_n_n.lhsNonContracting by decide)]
      rfl)
    (fun j q => dot_S8192x15_S15x64_S8192x64_1_0_0_1_n_n.lhsIdx_val_of_single rfl j q)
    (fun j q => dot_S8192x15_S15x64_S8192x64_1_0_0_1_n_n.rhsIdx_val_of_single rfl j q)
    (fun j q => by
      unfold DotDims.rhsIdx
      rw [dif_neg (show ¬(1 : Fin S15x64.rank) ∈ dot_S8192x15_S15x64_S8192x64_1_0_0_1_n_n.rhsBatch by decide),
        dif_pos (show (1 : Fin S15x64.rank) ∈ dot_S8192x15_S15x64_S8192x64_1_0_0_1_n_n.rhsNonContracting by decide)]
      rfl)
    l r

theorem mm_64_3 (l : FVec Ideal S8192x64 .bf16) (r : FVec Ideal S64x3 .bf16) :
    matmul dot_S8192x64_S64x3_S8192x3_1_0_0_1_n_n none l r (constant S8192x3 .f32 0x00000000#32)
      = byRows (fun n hn => dense (rowOf l n hn) r) :=
  matmul_rows dot_S8192x64_S64x3_S8192x3_1_0_0_1_n_n rfl rfl
    (fun j q => by
      unfold DotDims.lhsIdx
      rw [dif_neg (show ¬(0 : Fin S8192x64.rank) ∈ dot_S8192x64_S64x3_S8192x3_1_0_0_1_n_n.lhsBatch by decide),
        dif_pos (show (0 : Fin S8192x64.rank) ∈ dot_S8192x64_S64x3_S8192x3_1_0_0_1_n_n.lhsNonContracting by decide)]
      rfl)
    (fun j q => dot_S8192x64_S64x3_S8192x3_1_0_0_1_n_n.lhsIdx_val_of_single rfl j q)
    (fun j q => dot_S8192x64_S64x3_S8192x3_1_0_0_1_n_n.rhsIdx_val_of_single rfl j q)
    (fun j q => by
      unfold DotDims.rhsIdx
      rw [dif_neg (show ¬(1 : Fin S64x3.rank) ∈ dot_S8192x64_S64x3_S8192x3_1_0_0_1_n_n.rhsBatch by decide),
        dif_pos (show (1 : Fin S64x3.rank) ∈ dot_S8192x64_S64x3_S8192x3_1_0_0_1_n_n.rhsNonContracting by decide)]
      rfl)
    l r

/-- The maximum with the zero splat is the activation of each row. -/
theorem relu_rows {R C : Nat} (f : (r : Nat) → r < R → Fin C → EReal) :
    maximumf (F := Ideal) (φ := .f32) (byRows f) (broadcast ⟨2, ![R, C]⟩ (Scalar.ofBits .f32 0x00000000#32))
      = byRows (fun n hn => relu (f n hn)) := rfl

/-- A sum of two matrices, row by row. -/
theorem addf_rows {R C : Nat} (f g : (r : Nat) → r < R → Fin C → EReal) :
    addf (F := Ideal) (φ := .f32) (byRows f) (byRows g) = byRows (fun n hn j => f n hn j + g n hn j) := rfl

/-- The position features: columns 0 to 31 of the row block. -/
theorem slice_pts (x0 : Mat 8192 48) (h : S8192x48.Slices ![0, 0] S8192x32) :
    extractStridedSlice S8192x32 ![0, 0] x0 h = byRows (fun n hn => pts (rowOf x0 n hn)) := by
  funext j
  have h1 := idx2_lt1 j
  exact extractStridedSlice_apply ![0, 0] x0 h j (ix2 ⟨(j 0).val, idx2_lt0 j⟩ ⟨(j 1).val, by omega⟩) (fun a => match a with
    | ⟨0, _⟩ => by show (j 0).val = 0 + (j 0).val; omega
    | ⟨1, _⟩ => by show (j 1).val = 0 + (j 1).val; omega)

/-- The view features: columns 32 to 47. -/
theorem slice_views (x0 : Mat 8192 48) (h : S8192x48.Slices ![0, 32] S8192x16) :
    extractStridedSlice S8192x16 ![0, 32] x0 h = byRows (fun n hn => views (rowOf x0 n hn)) := by
  funext j
  have h1 := idx2_lt1 j
  exact extractStridedSlice_apply ![0, 32] x0 h j (ix2 ⟨(j 0).val, idx2_lt0 j⟩ ⟨32 + (j 1).val, by omega⟩) (fun a => match a with
    | ⟨0, _⟩ => by show (j 0).val = 0 + (j 0).val; omega
    | ⟨1, _⟩ => by show 32 + (j 1).val = 32 + (j 1).val; rfl)

/-- The density column: column 0 of the density net's output. -/
theorem slice_sigma (f : (r : Nat) → r < 8192 → Fin 16 → EReal) (h : S8192x16.Slices ![0, 0] S8192x1) :
    extractStridedSlice S8192x1 ![0, 0] (byRows f) h = byRows (fun n hn => fun _ : Fin 1 => f n hn ⟨0, by omega⟩) := by
  funext j
  have h1 := idx2_lt1 j
  refine (extractStridedSlice_apply ![0, 0] (byRows f) h j (ix2 ⟨(j 0).val, idx2_lt0 j⟩ ⟨0, by omega⟩) (fun a => match a with
    | ⟨0, _⟩ => by show (j 0).val = 0 + (j 0).val; omega
    | ⟨1, _⟩ => by show 0 = 0 + (j 1).val; omega)).trans ?_
  rfl

/-- The geometry features: columns 1 to 15 of it. -/
theorem slice_geo (f : (r : Nat) → r < 8192 → Fin 16 → EReal) (h : S8192x16.Slices ![0, 1] S8192x15) :
    extractStridedSlice S8192x15 ![0, 1] (byRows f) h = byRows (fun n hn => geo (f n hn)) := by
  funext j
  have h1 := idx2_lt1 j
  refine (extractStridedSlice_apply ![0, 1] (byRows f) h j (ix2 ⟨(j 0).val, idx2_lt0 j⟩ ⟨1 + (j 1).val, by omega⟩) (fun a => match a with
    | ⟨0, _⟩ => by show (j 0).val = 0 + (j 0).val; omega
    | ⟨1, _⟩ => by show 1 + (j 1).val = 1 + (j 1).val; rfl)).trans ?_
  rfl

/-- Three colour columns and the density column side by side. -/
theorem cat_rows (f : (r : Nat) → r < 8192 → Fin 3 → EReal) (g : (r : Nat) → r < 8192 → Fin 1 → EReal)
    (h : Shape.Concatenates [S8192x3, S8192x1] S8192x4 1) :
    concatenate S8192x4 1 [⟨S8192x3, byRows f⟩, ⟨S8192x1, byRows g⟩] h
      = byRows (fun n hn => fun j : Fin 4 => if hj : j.val < 3 then f n hn ⟨j.val, hj⟩ else g n hn ⟨0, by omega⟩) := by
  funext j
  have h1 := idx2_lt1 j
  by_cases hj : (j 1).val < 3
  · refine (concatenate_pair_apply_left (s₁ := S8192x3) (s₂ := S8192x1) 1 _ _ h j rfl (ix2 ⟨(j 0).val, idx2_lt0 j⟩ ⟨(j 1).val, hj⟩)
      (fun b => by match b with | ⟨0, _⟩ => rfl | ⟨1, _⟩ => rfl)).trans ?_
    show f _ _ _ = dite _ _ _
    rw [dif_pos hj]
  · refine (concatenate_pair_apply_right (s₁ := S8192x3) (s₂ := S8192x1) 1 _ _ h j rfl rfl (ix2 ⟨(j 0).val, idx2_lt0 j⟩ ⟨(j 1).val - 3, by omega⟩)
      (fun b hb => by match b with | ⟨0, _⟩ => rfl | ⟨1, _⟩ => exact absurd rfl hb)
      (by show (j 1).val - 3 + 3 = (j 1).val; omega)).trans ?_
    show g _ _ _ = dite _ _ _
    rw [dif_neg hj]
    exact congrArg (g _ _) (Fin.ext (by show (j 1).val - 3 = 0; omega))

/-- The 8192 × 4 value re-read as 256 × 128 in row-major order: entry `(r, c)` is entry `c % 4` of row `32 r + c / 4`. -/
theorem wide_rows (f : (r : Nat) → r < 8192 → Fin 4 → EReal) (h : S8192x4.ShapeCasts S256x128) :
    shapeCast S256x128 (byRows f) h
      = fun y : S256x128.Idx => f (32 * (y 0).val + (y 1).val / 4) (by have := idx2_lt0 y; have := idx2_lt1 y; omega)
          ⟨(y 1).val % 4, Nat.mod_lt _ (by decide)⟩ := by
  funext y
  have h0 := idx2_lt0 y
  have h1 := idx2_lt1 y
  refine (shapeCast_apply (byRows f) h y (ix2 ⟨32 * (y 0).val + (y 1).val / 4, by omega⟩ ⟨(y 1).val % 4, Nat.mod_lt _ (by decide)⟩) ?_).trans ?_
  · rw [Shape.rowMajor_val_two, Shape.rowMajor_val_two]
    show (32 * (y 0).val + (y 1).val / 4) * 4 + (y 1).val % 4 = (y 0).val * 128 + (y 1).val
    omega
  · rfl

/-! ## The payloads -/

variable (x0 : Vec Ideal S8192x48 .f32) (w1 : Vec Ideal S32x64 .bf16) (w2 : Vec Ideal S64x64 .bf16)
  (w3 : Vec Ideal S64x16 .bf16) (w4 : Vec Ideal S16x64 .bf16) (w5 : Vec Ideal S15x64 .bf16)
  (w6 w7 : Vec Ideal S64x64 .bf16) (w8 : Vec Ideal S64x3 .bf16)

/-- The density net's output, row by row. -/
theorem pay2_eq : k0_pay2 (F := Ideal) x0 w1 w2 w3 = byRows (fun n hn => sigmaNet (rowOf x0 n hn) w1 w2 w3) := by
  unfold k0_pay2
  simp only [shapeCast_self]
  rw [slice_pts x0, mm_32_64, relu_rows, mm_64_64, relu_rows, mm_64_16]
  rfl

/-- The density column. -/
theorem pay3_eq : k0_pay3 (F := Ideal) x0 w1 w2 w3
    = byRows (fun n hn => fun _ : Fin 1 => sigmaNet (rowOf x0 n hn) w1 w2 w3 ⟨0, by omega⟩) := by
  unfold k0_pay3
  rw [pay2_eq, slice_sigma]

/-- The colour net up to its second product, row by row. -/
theorem pay4_eq : k0_pay4 (F := Ideal) x0 w1 w2 w3 w4 w5 w6
    = byRows (fun n hn => dense (relu (mix (views (rowOf x0 n hn)) (geo (sigmaNet (rowOf x0 n hn) w1 w2 w3)) w4 w5)) w6) := by
  unfold k0_pay4
  simp only [shapeCast_self]
  rw [pay2_eq, slice_views x0, slice_geo, mm_16_64, mm_15_64, addf_rows, relu_rows, mm_64_64]
  rfl

/-- WHAT THE BODY STORES: at `(r, c)`, entry `c % 4` of the network's result row for row `32 r + c / 4` of the row block. -/
theorem stored_eq :
    k0_pay1 (F := Ideal) (k0_pay3 x0 w1 w2 w3) (k0_pay4 x0 w1 w2 w3 w4 w5 w6) w7 w8
      = fun y : S256x128.Idx => row (rowOf x0 (32 * (y 0).val + (y 1).val / 4) (by have := idx2_lt0 y; have := idx2_lt1 y; omega))
          w1 w2 w3 w4 w5 w6 w7 w8 ⟨(y 1).val % 4, Nat.mod_lt _ (by decide)⟩ := by
  unfold k0_pay1
  simp only [shapeCast_self]
  rw [shapeCast_self w7, shapeCast_self w8, pay3_eq, pay4_eq, relu_rows, mm_64_64, relu_rows, mm_64_3, cat_rows, wide_rows]
  rfl

end Cert.KernelIdeal.BlockValue

end
-- ==== Proof.ArrayValue.lean ====
/-
  From the blocks to the arrays: what the whole program leaves in its result.

  Grid point `t` loads rows `8192 t` to `8192 t + 8191` of `x` and every weight whole, and writes back rows
  `256 t` to `256 t + 255` of a 65536 × 128 array. By the block value, entry `(r, c)` of that array is entry
  `c % 4` of the network's result row for row `32 r + c / 4` of `x`: the 2097152 × 4 result in row-major
  order. The blocks tile the array, so it ends holding exactly that, and the program's closing reshape reads it
  back as the 2097152 × 4 result itself. The weights reach the kernel through format changes, which are the identity
  on extended reals, and the colour net's first weight as its first sixteen and last fifteen rows.
-/
import proofs.«159029_j9689446220225_2_alg».proof.Proof.Gen.KernelIdeal.Frame
import proofs.«159029_j9689446220225_2_alg».proof.Proof.BlockValue
import Idealize.ShloMosaic.Lib.Pipeline.Value
import Idealize.ShloMosaic.Lib.StableHlo.Run

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.ArrayValue

open Cert.KernelIdeal Cert.KernelIdeal.Facts₀ Cert.KernelIdeal.Gen Cert.KernelIdeal.BlockValue Cert.Mlp

variable (m : (ℓ : Loc nD τ sig) → Buf (Elt Ideal) ℓ) (ρ : Dev nD → PrngReg)

/-! ## The arrays the region finds -/

theorem V_main_v0 (c : Dev nD) : (V m c main_v0 : S32x64.Idx → EReal) = m ((c : Thread nD τ).loc main_arg1) := by
  show StableHlo.after hostOps0 (fun b => m (c, b)) (Proc.devRef .tc main_v0) = _
  after_results
  rfl

theorem V_main_v1 (c : Dev nD) : (V m c main_v1 : S64x64.Idx → EReal) = m ((c : Thread nD τ).loc main_arg2) := by
  show StableHlo.after hostOps0 (fun b => m (c, b)) (Proc.devRef .tc main_v1) = _
  after_results
  rfl

theorem V_main_v2 (c : Dev nD) : (V m c main_v2 : S64x16.Idx → EReal) = m ((c : Thread nD τ).loc main_arg3) := by
  show StableHlo.after hostOps0 (fun b => m (c, b)) (Proc.devRef .tc main_v2) = _
  after_results
  rfl

theorem V_main_v4 (c : Dev nD) : (V m c main_v4 : S16x64.Idx → EReal) = top (m ((c : Thread nD τ).loc main_arg4)) := by
  show StableHlo.after hostOps0 (fun b => m (c, b)) (Proc.devRef .tc main_v4) = _
  after_results
  funext i
  have h0 := idx2_lt0 i
  show extractStridedSlice S16x64 ![0, 0] (m ((c : Thread nD τ).loc main_arg4) : S31x64.Idx → EReal) Gen.slices_S31x64_S16x64_0_0 i
    = m ((c : Thread nD τ).loc main_arg4) (ix2 ⟨(i 0).val, by omega⟩ ⟨(i 1).val, idx2_lt1 i⟩)
  exact extractStridedSlice_apply ![0, 0] (m ((c : Thread nD τ).loc main_arg4) : S31x64.Idx → EReal) Gen.slices_S31x64_S16x64_0_0 i
    (ix2 ⟨(i 0).val, by omega⟩ ⟨(i 1).val, idx2_lt1 i⟩) (fun a => match a with
    | ⟨0, _⟩ => by show (i 0).val = 0 + (i 0).val; omega
    | ⟨1, _⟩ => by show (i 1).val = 0 + (i 1).val; omega)

theorem V_main_v6 (c : Dev nD) : (V m c main_v6 : S15x64.Idx → EReal) = bot (m ((c : Thread nD τ).loc main_arg4)) := by
  show StableHlo.after hostOps0 (fun b => m (c, b)) (Proc.devRef .tc main_v6) = _
  after_results
  funext i
  have h0 := idx2_lt0 i
  show extractStridedSlice S15x64 ![16, 0] (m ((c : Thread nD τ).loc main_arg4) : S31x64.Idx → EReal) Gen.slices_S31x64_S15x64_16_0 i
    = m ((c : Thread nD τ).loc main_arg4) (ix2 ⟨16 + (i 0).val, by omega⟩ ⟨(i 1).val, idx2_lt1 i⟩)
  exact extractStridedSlice_apply ![16, 0] (m ((c : Thread nD τ).loc main_arg4) : S31x64.Idx → EReal) Gen.slices_S31x64_S15x64_16_0 i
    (ix2 ⟨16 + (i 0).val, by omega⟩ ⟨(i 1).val, idx2_lt1 i⟩) (fun a => match a with
    | ⟨0, _⟩ => by show 16 + (i 0).val = 16 + (i 0).val; rfl
    | ⟨1, _⟩ => by show (i 1).val = 0 + (i 1).val; omega)

theorem V_main_v7 (c : Dev nD) : (V m c main_v7 : S64x64.Idx → EReal) = m ((c : Thread nD τ).loc main_arg5) := by
  show StableHlo.after hostOps0 (fun b => m (c, b)) (Proc.devRef .tc main_v7) = _
  after_results
  rfl

theorem V_main_v8 (c : Dev nD) : (V m c main_v8 : S64x64.Idx → EReal) = m ((c : Thread nD τ).loc main_arg6) := by
  show StableHlo.after hostOps0 (fun b => m (c, b)) (Proc.devRef .tc main_v8) = _
  after_results
  rfl

theorem V_main_v9 (c : Dev nD) : (V m c main_v9 : S64x3.Idx → EReal) = m ((c : Thread nD τ).loc main_arg7) := by
  show StableHlo.after hostOps0 (fun b => m (c, b)) (Proc.devRef .tc main_v9) = _
  after_results
  rfl

/-! ## The blocks a grid point loads -/

/-- The index maps over the grid: the row block and the output block move with the point, on axis 0. -/
theorem idx_facts : ∀ t : Fin cfg0.N,
    win0_0.index t (0 : Fin 2) = t.val ∧ win0_0.index t (1 : Fin 2) = 0
    ∧ win0_9.index t (0 : Fin 2) = t.val ∧ win0_9.index t (1 : Fin 2) = 0 :=
  (by decide +kernel : ∀ t : Fin grid0.N, _)

/-- Every weight window stays at block zero. -/
theorem idx_w : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- Row `r` of the row block at point `t` is row `8192 t + r` of `x`. -/
theorem x_row (c : Dev nD) (t : Fin cfg0.N) (r : Nat) (hr : r < 8192) :
    rowOf (iblk m c 0 t : Mat 8192 48) r hr
      = rowOf (m ((c : Thread nD τ).loc main_arg0)) (8192 * t.val + r)
          (by have hN : cfg0.N = 256 := N_0; have := t.isLt; omega) := by
  funext k
  obtain ⟨e0, e1, -, -⟩ := idx_facts t
  show V m c main_arg0 (((cfg0.win 0).blk t).view.emb (ix2 ⟨r, hr⟩ k)) = _
  rw [V_main_arg0]
  refine congrArg _ (funext fun a => Fin.ext ?_)
  match a with
  | ⟨0, _⟩ => show win0_0.index t (0 : Fin 2) * 8192 + 1 * r = 8192 * t.val + r; omega
  | ⟨1, _⟩ => show win0_0.index t (1 : Fin 2) * 48 + 1 * k.val = k.val; omega

theorem w1_eq (c : Dev nD) (t : Fin cfg0.N) : (iblk m c 1 t : Mat 32 64) = m ((c : Thread nD τ).loc main_arg1) := by
  funext y
  obtain ⟨⟨e0, e1⟩, -, -, -, -, -, -, -⟩ := idx_w t
  show V m c main_v0 (((cfg0.win 1).blk t).view.emb y) = _
  rw [V_main_v0]
  refine congrArg _ (funext fun a => Fin.ext ?_)
  match a with
  | ⟨0, _⟩ => show win0_1.index t (0 : Fin 2) * 32 + 1 * (y 0).val = (y 0).val; omega
  | ⟨1, _⟩ => show win0_1.index t (1 : Fin 2) * 64 + 1 * (y 1).val = (y 1).val; omega

theorem w2_eq (c : Dev nD) (t : Fin cfg0.N) : (iblk m c 2 t : Mat 64 64) = m ((c : Thread nD τ).loc main_arg2) := by
  funext y
  obtain ⟨-, ⟨e0, e1⟩, -, -, -, -, -, -⟩ := idx_w t
  show V m c main_v1 (((cfg0.win 2).blk t).view.emb y) = _
  rw [V_main_v1]
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

theorem w3_eq (c : Dev nD) (t : Fin cfg0.N) : (iblk m c 3 t : Mat 64 16) = m ((c : Thread nD τ).loc main_arg3) := by
  funext y
  obtain ⟨-, -, ⟨e0, e1⟩, -, -, -, -, -⟩ := idx_w t
  show V m c main_v2 (((cfg0.win 3).blk t).view.emb y) = _
  rw [V_main_v2]
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 16 + 1 * (y 1).val = (y 1).val; omega

theorem w4_eq (c : Dev nD) (t : Fin cfg0.N) : (iblk m c 4 t : Mat 16 64) = top (m ((c : Thread nD τ).loc main_arg4)) := by
  funext y
  obtain ⟨-, -, -, ⟨e0, e1⟩, -, -, -, -⟩ := idx_w t
  show V m c main_v4 (((cfg0.win 4).blk t).view.emb y) = _
  rw [V_main_v4]
  refine congrArg _ (funext fun a => Fin.ext ?_)
  match a with
  | ⟨0, _⟩ => show win0_4.index t (0 : Fin 2) * 16 + 1 * (y 0).val = (y 0).val; omega
  | ⟨1, _⟩ => show win0_4.index t (1 : Fin 2) * 64 + 1 * (y 1).val = (y 1).val; omega

theorem w5_eq (c : Dev nD) (t : Fin cfg0.N) : (iblk m c 5 t : Mat 15 64) = bot (m ((c : Thread nD τ).loc main_arg4)) := by
  funext y
  obtain ⟨-, -, -, -, ⟨e0, e1⟩, -, -, -⟩ := idx_w t
  show V m c main_v6 (((cfg0.win 5).blk t).view.emb y) = _
  rw [V_main_v6]
  refine congrArg _ (funext fun a => Fin.ext ?_)
  match a with
  | ⟨0, _⟩ => show win0_5.index t (0 : Fin 2) * 15 + 1 * (y 0).val = (y 0).val; omega
  | ⟨1, _⟩ => show win0_5.index t (1 : Fin 2) * 64 + 1 * (y 1).val = (y 1).val; omega

theorem w6_eq (c : Dev nD) (t : Fin cfg0.N) : (iblk m c 6 t : Mat 64 64) = m ((c : Thread nD τ).loc main_arg5) := by
  funext y
  obtain ⟨-, -, -, -, -, ⟨e0, e1⟩, -, -⟩ := idx_w t
  show V m c main_v7 (((cfg0.win 6).blk t).view.emb y) = _
  rw [V_main_v7]
  refine congrArg _ (funext fun a => Fin.ext ?_)
  match a with
  | ⟨0, _⟩ => show win0_6.index t (0 : Fin 2) * 64 + 1 * (y 0).val = (y 0).val; omega
  | ⟨1, _⟩ => show win0_6.index t (1 : Fin 2) * 64 + 1 * (y 1).val = (y 1).val; omega

theorem w7_eq (c : Dev nD) (t : Fin cfg0.N) : (iblk m c 7 t : Mat 64 64) = m ((c : Thread nD τ).loc main_arg6) := by
  funext y
  obtain ⟨-, -, -, -, -, -, ⟨e0, e1⟩, -⟩ := idx_w t
  show V m c main_v8 (((cfg0.win 7).blk t).view.emb y) = _
  rw [V_main_v8]
  refine congrArg _ (funext fun a => Fin.ext ?_)
  match a with
  | ⟨0, _⟩ => show win0_7.index t (0 : Fin 2) * 64 + 1 * (y 0).val = (y 0).val; omega
  | ⟨1, _⟩ => show win0_7.index t (1 : Fin 2) * 64 + 1 * (y 1).val = (y 1).val; omega

theorem w8_eq (c : Dev nD) (t : Fin cfg0.N) : (iblk m c 8 t : Mat 64 3) = m ((c : Thread nD τ).loc main_arg7) := by
  funext y
  obtain ⟨-, -, -, -, -, -, -, ⟨e0, e1⟩⟩ := idx_w t
  show V m c main_v9 (((cfg0.win 8).blk t).view.emb y) = _
  rw [V_main_v9]
  refine congrArg _ (funext fun a => Fin.ext ?_)
  match a with
  | ⟨0, _⟩ => show win0_8.index t (0 : Fin 2) * 64 + 1 * (y 0).val = (y 0).val; omega
  | ⟨1, _⟩ => show win0_8.index t (1 : Fin 2) * 3 + 1 * (y 1).val = (y 1).val; omega

/-! ## What a grid point writes back -/

/-- The 2097152 × 4 result in row-major order as 65536 rows of 128: entry `(r, c)` is entry `c % 4` of row `32 r + c / 4`. -/
def wide (g : Mat 2097152 4) : Mat 65536 128 := fun i =>
  g (ix2 ⟨32 * (i 0).val + (i 1).val / 4, by have := idx2_lt0 i; have := idx2_lt1 i; omega⟩
    ⟨(i 1).val % 4, Nat.mod_lt _ (by decide)⟩)

/-- The network applied to every row of the program's arguments. -/
abbrev result (c : Dev nD) : Mat 2097152 4 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

theorem row_congr (x : Mat 2097152 48) (s0 : Mat 32 64) (s1 : Mat 64 64) (s2 : Mat 64 16) (c0v : Mat 16 64) (c0g : Mat 15 64)
    (c1 c2 : Mat 64 64) (c3 : Mat 64 3) {r r' : Nat} (hr : r < 2097152) (hr' : r' < 2097152) {j j' : Fin 4}
    (er : r = r') (ej : j = j') :
    row (rowOf x r hr) s0 s1 s2 c0v c0g c1 c2 c3 j = row (rowOf x r' hr') s0 s1 s2 c0v c0g c1 c2 c3 j' := by
  subst er; subst ej; rfl

theorem hz : (![0, 0] : Fin 2 → Nat) = fun _ => 0 := funext fun a => by fin_cases a <;> rfl

/-- WHAT POINT `t` WRITES BACK is block `t` of the result in its 65536 × 128 arrangement. -/
theorem flushed_eq (c : Dev nD) (t : Fin cfg0.N) :
    (dats m 0 c).flushed 9 t = ((cfg0.win 9).blk t).view.read (Elt Ideal) (wide (result m c)) := by
  show (cfg0.win 9).cut (grid0.coords t) ((dats m 0 c).after 9 t) = _
  rw [after0_9]
  unfold out0_9
  rw [View.canon_unit_zero hz]
  simp only [View.ld_unit_zero (S := S8192x48) hz, View.ld_unit_zero (S := S32x64) hz, View.ld_unit_zero (S := S64x64) hz,
    View.ld_unit_zero (S := S64x16) hz, View.ld_unit_zero (S := S16x64) hz, View.ld_unit_zero (S := S15x64) hz,
    View.ld_unit_zero (S := S64x3) hz]
  rw [stored_eq]
  rw [w1_eq m c t, w2_eq m c t, w3_eq m c t, w4_eq m c t, w5_eq m c t, w6_eq m c t, w7_eq m c t, w8_eq m c t]
  obtain ⟨-, -, e0, e1⟩ := idx_facts t
  have hN : cfg0.N = 256 := N_0
  have ht := t.isLt
  funext y
  show row (rowOf (iblk m c 0 t : Mat 8192 48) (32 * (y 0).val + (y 1).val / 4) _) _ _ _ _ _ _ _ _ ⟨(y 1).val % 4, _⟩
    = wide (result m c) (((cfg0.win 9).blk t).view.emb y)
  rw [x_row m c t]
  unfold wide result G
  refine row_congr _ _ _ _ _ _ _ _ _ _ _ ?_ (Fin.ext ?_)
  · show 8192 * t.val + (32 * (y 0).val + (y 1).val / 4)
      = 32 * (win0_9.index t (0 : Fin 2) * 256 + 1 * (y 0).val) + (win0_9.index t (1 : Fin 2) * 128 + 1 * (y 1).val) / 4
    omega
  · show (y 1).val % 4 = (win0_9.index t (1 : Fin 2) * 128 + 1 * (y 1).val) % 4
    omega

/-! ## The array after the run, and the program's result -/

/-- An index of the 65536 × 128 array is in point `t`'s block iff each coordinate is in the block's range. -/
theorem mem_blk (t : Fin cfg0.N) (i : S65536x128.Idx) :
    i ∈ ((cfg0.win 9).blk t).view.set ↔ ∀ a : Fin 2, win0_9.index t a * S256x128.size a ≤ (i a).val
      ∧ (i a).val < win0_9.index t a * S256x128.size a + S256x128.size a := by
  show i ∈ ((View.whole main_v10).slice (win0_9.rect t)).set ↔ _
  rw [View.set_slice_whole, Rect.mem_set_unit]
  exact Iff.rfl

/-- The blocks tile the array: row `r` is in the block of point `r / 256`. -/
theorem cover (i : S65536x128.Idx) :
    ∃ t : Fin cfg0.N, (cfg0.win 9).flush t = true ∧ i ∈ ((cfg0.win 9).blk t).view.set := by
  have h0 := idx2_lt0 i
  have h1 := idx2_lt1 i
  have hN : cfg0.N = 256 := N_0
  let T : Fin cfg0.N := ⟨(i 0).val / 256, by rw [hN]; omega⟩
  have e := idx_facts T
  have e0 : win0_9.index T (0 : Fin 2) = (i 0).val / 256 := e.2.2.1
  have e1 : win0_9.index T (1 : Fin 2) = 0 := e.2.2.2
  refine ⟨T, flush0_9 T, ?_⟩
  rw [mem_blk]
  intro a
  match a with
  | ⟨0, _⟩ =>
    show win0_9.index T (0 : Fin 2) * 256 ≤ (i 0).val ∧ (i 0).val < win0_9.index T (0 : Fin 2) * 256 + 256
    omega
  | ⟨1, _⟩ =>
    show win0_9.index T (1 : Fin 2) * 128 ≤ (i 1).val ∧ (i 1).val < win0_9.index T (1 : Fin 2) * 128 + 128
    omega

/-- The 65536 × 128 array after the run is the result in that arrangement. -/
theorem final (c : Dev nD) : (dats m 0 c).arrAt 9 cfg0.N = wide (result m c) :=
  (dats m 0 c).arrAt_eq_of_cover 9 (wide (result m c)) (fun t _ => flushed_eq m c t) cover

/-- The closing reshape reads it back as the 2097152 × 4 result. -/
theorem tail_eq (c : Dev nD) :
    Pipeline.afterTail₀ cfgs (dats m) 0 (V0 m) [hostOps1] c main_v11 = result m c := by
  unfold Pipeline.afterTail₀
  show StableHlo.after hostOps1 _ (Proc.devRef .tc main_v11) = _
  after_results
  funext i
  have h0 := idx2_lt0 i
  have h1 := idx2_lt1 i
  have hw : Pipeline.withArrays (cfgs 0).spec c (V0 m c) (fun w => (dats m 0 c).arrAt w (cfgs 0).N) (Proc.devRef .tc main_v10)
      = wide (result m c) :=
    (Pipeline.withArrays_arr spec0 launch0.win.arr_inj c _ _ 9).trans (final m c)
  show shapeCast S2097152x4 (Pipeline.withArrays (cfgs 0).spec c (V0 m c) (fun w => (dats m 0 c).arrAt w (cfgs 0).N)
      (Proc.devRef .tc main_v10)) Gen.shapeCasts_S65536x128_S2097152x4 i = result m c i
  rw [hw]
  refine (shapeCast_apply (wide (result m c)) Gen.shapeCasts_S65536x128_S2097152x4 i
    (ix2 ⟨(i 0).val / 32, by omega⟩ ⟨(i 0).val % 32 * 4 + (i 1).val, by omega⟩) ?_).trans ?_
  · rw [Shape.rowMajor_val_two, Shape.rowMajor_val_two]
    show (i 0).val / 32 * 128 + ((i 0).val % 32 * 4 + (i 1).val) = (i 0).val * 4 + (i 1).val
    omega
  · unfold wide
    refine congrArg (result m c) (idx2_ext _ _ ?_ ?_)
    · show 32 * ((i 0).val / 32) + ((i 0).val % 32 * 4 + (i 1).val) / 4 = (i 0).val
      omega
    · show ((i 0).val % 32 * 4 + (i 1).val) % 4 = (i 1).val
      omega

/-- THE RUN: every weakly fair execution of the program terminates with the result array holding the network applied to
    every row of the arguments, and the arguments unchanged. -/
theorem run : θ_run defs (onTc (τ := τ) (main (F := Ideal))) ⟨m, fun _ => 0, ρ⟩ fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v11 (Pipeline.mem_restRefs_of main_v11 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.ArrayValue

end
-- ==== Proof.lean ====
/-
  Two programs compute a small neural radiance network on 2097152 rows of 48 features: a density net of three
  bias-free layers (32 → 64 → 64 → 16) and a colour net of four (31 → 64 → 64 → 64 → 3), with the maximum with zero
  between layers; each result row is the three colours followed by the density.

  The kernel works on blocks of 8192 rows, multiplies in a narrower float format, computes the colour net's first
  layer as the sum of two products (view features against the first sixteen rows of the weight, geometry features against
  the last fifteen) instead of one product with their concatenation, and writes each block's 8192 × 4 values as 256
  rows of 128 which the program reshapes back at the end. Read over the extended reals none of this changes the
  value: a change of float format is the identity, a product into a zero accumulator is the plain sum of products,
  a sum of 31 terms is the sum of its first sixteen and its last fifteen (addition of extended reals is commutative and
  associative; no finiteness is needed), and the reshapes preserve row-major order. Both programs therefore end
  with `Cert.Mlp.G` of their arguments (Proof/Spec.lean): the reference by Proof/RefValue.lean, the kernel by
  Proof/BlockValue.lean (one block) and Proof/ArrayValue.lean (the whole array and the run).

  The three frames are the generated ones (the reference's is its run with the result dropped), and the
  idealization rewrote nothing, so `preserves` has nothing to state.
-/
import proofs.«159029_j9689446220225_2_alg».proof.Defs
import proofs.«159029_j9689446220225_2_alg».proof.Proof.Gen.Kernel
import proofs.«159029_j9689446220225_2_alg».proof.Proof.Gen.Kernel.Skeleton
import proofs.«159029_j9689446220225_2_alg».proof.Proof.Gen.Kernel.Launch
import proofs.«159029_j9689446220225_2_alg».proof.Proof.Gen.Kernel.Points
import proofs.«159029_j9689446220225_2_alg».proof.Proof.Gen.Kernel.Frame
import proofs.«159029_j9689446220225_2_alg».proof.Proof.Gen.KernelIdeal
import proofs.«159029_j9689446220225_2_alg».proof.Proof.Gen.KernelIdeal.Skeleton
import proofs.«159029_j9689446220225_2_alg».proof.Proof.Gen.KernelIdeal.Launch
import proofs.«159029_j9689446220225_2_alg».proof.Proof.Gen.KernelIdeal.Points
import proofs.«159029_j9689446220225_2_alg».proof.Proof.Gen.KernelIdeal.Frame
import proofs.«159029_j9689446220225_2_alg».proof.Proof.Gen.ReferenceIdeal
import proofs.«159029_j9689446220225_2_alg».proof.Proof.Gen.Pre_finite_inputs
import proofs.«159029_j9689446220225_2_alg».proof.Proof.Gen.ReferenceIdeal.Run
import proofs.«159029_j9689446220225_2_alg».proof.Proof.Gen.ReferenceIdeal.Read
import proofs.«159029_j9689446220225_2_alg».proof.Proof.RefValue
import proofs.«159029_j9689446220225_2_alg».proof.Proof.ArrayValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network applied to every row of arguments that agree. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq]
  obtain ⟨a0, a1, a2, a3, a4, a5, a6, a7⟩ := hagree c
  rw [a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
